-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg6
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x64 .f32) (main_arg1 : FVec F S100000x1 .f32) (main_arg2 : IVec S1600000 32) (main_arg3 : IVec S1600000 32) (main_arg4 : FVec F S64x64 .f32) (main_arg5 : FVec F S64 .f32) (main_arg6 : FVec F S64x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S10000x64 : Shape := ⟨2, ![10000, 64]⟩
abbrev S10000x1 : Shape := ⟨2, ![10000, 1]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x40 : Shape := ⟨2, ![1, 40]⟩
abbrev S100000x40 : Shape := ⟨2, ![100000, 40]⟩
abbrev S10000x40 : Shape := ⟨2, ![10000, 40]⟩

abbrev nBuf : Space → Nat
  | .hbm => 40
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S1x40, .f32⟩
  | .hbm, ⟨39, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .f32⟩
  | .local _ .vmem, ⟨23, _⟩ => ⟨S10000x1, .f32⟩
  | .local _ .vmem, ⟨24, _⟩ => ⟨S64x40, .f32⟩
  | .local _ .vmem, ⟨25, _⟩ => ⟨S1x40, .f32⟩
  | .local _ .vmem, ⟨26, _⟩ => ⟨S10000x40, .f32⟩
  | .local _ .vmem, ⟨27, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x40.size a ≤ S64x40.size a
  hwx3_2 : ∀ i : grid3.Coords, EltTy.bits .f32 = 32 ∨ (Rect.block (s := S64x40) S64x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x40.size a ≤ S100000x40.size a
  hwx3_4 : ∀ i : grid3.Coords, EltTy.bits .f32 = 32 ∨ (Rect.block (s := S100000x40) S10000x40.size (cc3_transform_4 i) (hinb3_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v12) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S10000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S100000x1 : Shape := ⟨2, ![100000, 1]⟩
abbrev S1600000 : Shape := ⟨1, ![1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 53
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000x64, .f32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S1x64, .f32⟩
  | .hbm, ⟨27, _⟩ => ⟨S100000x64, .f32⟩
  | .hbm, ⟨28, _⟩ => ⟨S100000x64, .f32⟩
  | .hbm, ⟨29, _⟩ => ⟨S_, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x40, .f32⟩
  | .hbm, ⟨50, _⟩ => ⟨S1x40, .f32⟩
  | .hbm, ⟨51, _⟩ => ⟨S100000x40, .f32⟩
  | .hbm, ⟨52, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The kernel's program run from the launch to the return, with what every buffer holds at the end.

  The program is four Pallas regions with two stretches of host operations between them. The generated frame runs it
  through boundary contents W0 .. W6, one per segment boundary: a region replaces its output array by what its blocks
  wrote back and leaves every other buffer; a host stretch replaces the buffers its operations write. Here the same
  run is posted with the result buffer read at the last boundary, and the boundaries are then read back one by one:
  no segment writes an argument, so every argument buffer holds its launch contents at every boundary.
-/
import proofs.«155898_j19679540150348_2_alg».proof.Proof.Gen.KernelIdeal.Frame

set_option maxRecDepth 16384

noncomputable section

open scoped BigOperators

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core ends
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result buffer named: it ends at the last boundary's contents, and the arguments as launched. -/
theorem run_result : θ_run defs (onTc (τ := τ) (main (F := F))) ⟨m, fun _ => 0, ρ⟩ (fun r => ∀ c : Dev nD,
      r.2.mem ((c.tc : Thread nD τ).loc main_v25) = W6 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v25 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩)
    (run_all m ρ)

/-! ## The arguments at every boundary -/

/-- Every argument buffer holds, in the contents W, what it held at the launch. -/
structure ArgsKept (c : Dev nD) (W : Valuation τ sig (Elt F)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)

/-- After the first scaling region: it reads the features and the factor column and writes neither. -/
theorem kept1 (c : Dev nD) : ArgsKept m c (W1 m ρ c) where
  a0 := (W1_arr m ρ c 0).trans (((dat0 (V0 m ρ) c).arrAt_in 0 rfl _).trans (A_eq0 (V0 m ρ) c 0))
  a1 := (W1_arr m ρ c 1).trans (((dat0 (V0 m ρ) c).arrAt_in 1 rfl _).trans (A_eq0 (V0 m ρ) c 1))
  a2 := W1_of_ne m ρ c main_arg2 (by decide)
  a3 := W1_of_ne m ρ c main_arg3 (by decide)
  a4 := W1_of_ne m ρ c main_arg4 (by decide)
  a5 := W1_of_ne m ρ c main_arg5 (by decide)
  a6 := W1_of_ne m ρ c main_arg6 (by decide)
  a7 := W1_of_ne m ρ c main_arg7 (by decide)

/-- After the first neighbour sum: its operations write their own result buffers only. -/
theorem kept2 (c : Dev nD) : ArgsKept m c (W2 m ρ c) where
  a0 := (show W2 m ρ c (Proc.devRef .tc main_arg0) = W1 m ρ c (Proc.devRef .tc main_arg0) from by
    show StableHlo.after hostOps1 _ _ = _
    after_results).trans (kept1 m ρ c).a0
  a1 := (show W2 m ρ c (Proc.devRef .tc main_arg1) = W1 m ρ c (Proc.devRef .tc main_arg1) from by
    show StableHlo.after hostOps1 _ _ = _
    after_results).trans (kept1 m ρ c).a1
  a2 := (show W2 m ρ c (Proc.devRef .tc main_arg2) = W1 m ρ c (Proc.devRef .tc main_arg2) from by
    show StableHlo.after hostOps1 _ _ = _
    after_results).trans (kept1 m ρ c).a2
  a3 := (show W2 m ρ c (Proc.devRef .tc main_arg3) = W1 m ρ c (Proc.devRef .tc main_arg3) from by
    show StableHlo.after hostOps1 _ _ = _
    after_results).trans (kept1 m ρ c).a3
  a4 := (show W2 m ρ c (Proc.devRef .tc main_arg4) = W1 m ρ c (Proc.devRef .tc main_arg4) from by
    show StableHlo.after hostOps1 _ _ = _
    after_results).trans (kept1 m ρ c).a4
  a5 := (show W2 m ρ c (Proc.devRef .tc main_arg5) = W1 m ρ c (Proc.devRef .tc main_arg5) from by
    show StableHlo.after hostOps1 _ _ = _
    after_results).trans (kept1 m ρ c).a5
  a6 := (show W2 m ρ c (Proc.devRef .tc main_arg6) = W1 m ρ c (Proc.devRef .tc main_arg6) from by
    show StableHlo.after hostOps1 _ _ = _
    after_results).trans (kept1 m ρ c).a6
  a7 := (show W2 m ρ c (Proc.devRef .tc main_arg7) = W1 m ρ c (Proc.devRef .tc main_arg7) from by
    show StableHlo.after hostOps1 _ _ = _
    after_results).trans (kept1 m ρ c).a7

/-- After the first linear region: it reads the factor column, the weights and the bias row, and writes none. -/
theorem kept3 (c : Dev nD) : ArgsKept m c (W3 m ρ c) where
  a0 := (W3_of_ne m ρ c main_arg0 (by decide)).trans (kept2 m ρ c).a0
  a1 := ((W3_arr m ρ c 1).trans (((dat1 (V2 m ρ) c).arrAt_in 1 rfl _).trans (A_eq1 (V2 m ρ) c 1))).trans (kept2 m ρ c).a1
  a2 := (W3_of_ne m ρ c main_arg2 (by decide)).trans (kept2 m ρ c).a2
  a3 := (W3_of_ne m ρ c main_arg3 (by decide)).trans (kept2 m ρ c).a3
  a4 := ((W3_arr m ρ c 2).trans (((dat1 (V2 m ρ) c).arrAt_in 2 rfl _).trans (A_eq1 (V2 m ρ) c 2))).trans (kept2 m ρ c).a4
  a5 := (W3_of_ne m ρ c main_arg5 (by decide)).trans (kept2 m ρ c).a5
  a6 := (W3_of_ne m ρ c main_arg6 (by decide)).trans (kept2 m ρ c).a6
  a7 := (W3_of_ne m ρ c main_arg7 (by decide)).trans (kept2 m ρ c).a7

/-- After the second scaling region. -/
theorem kept4 (c : Dev nD) : ArgsKept m c (W4 m ρ c) where
  a0 := (W4_of_ne m ρ c main_arg0 (by decide)).trans (kept3 m ρ c).a0
  a1 := ((W4_arr m ρ c 1).trans (((dat2 (V3 m ρ) c).arrAt_in 1 rfl _).trans (A_eq2 (V3 m ρ) c 1))).trans (kept3 m ρ c).a1
  a2 := (W4_of_ne m ρ c main_arg2 (by decide)).trans (kept3 m ρ c).a2
  a3 := (W4_of_ne m ρ c main_arg3 (by decide)).trans (kept3 m ρ c).a3
  a4 := (W4_of_ne m ρ c main_arg4 (by decide)).trans (kept3 m ρ c).a4
  a5 := (W4_of_ne m ρ c main_arg5 (by decide)).trans (kept3 m ρ c).a5
  a6 := (W4_of_ne m ρ c main_arg6 (by decide)).trans (kept3 m ρ c).a6
  a7 := (W4_of_ne m ρ c main_arg7 (by decide)).trans (kept3 m ρ c).a7

/-- After the second neighbour sum. -/
theorem kept5 (c : Dev nD) : ArgsKept m c (W5 m ρ c) where
  a0 := (show W5 m ρ c (Proc.devRef .tc main_arg0) = W4 m ρ c (Proc.devRef .tc main_arg0) from by
    show StableHlo.after hostOps3 _ _ = _
    after_results).trans (kept4 m ρ c).a0
  a1 := (show W5 m ρ c (Proc.devRef .tc main_arg1) = W4 m ρ c (Proc.devRef .tc main_arg1) from by
    show StableHlo.after hostOps3 _ _ = _
    after_results).trans (kept4 m ρ c).a1
  a2 := (show W5 m ρ c (Proc.devRef .tc main_arg2) = W4 m ρ c (Proc.devRef .tc main_arg2) from by
    show StableHlo.after hostOps3 _ _ = _
    after_results).trans (kept4 m ρ c).a2
  a3 := (show W5 m ρ c (Proc.devRef .tc main_arg3) = W4 m ρ c (Proc.devRef .tc main_arg3) from by
    show StableHlo.after hostOps3 _ _ = _
    after_results).trans (kept4 m ρ c).a3
  a4 := (show W5 m ρ c (Proc.devRef .tc main_arg4) = W4 m ρ c (Proc.devRef .tc main_arg4) from by
    show StableHlo.after hostOps3 _ _ = _
    after_results).trans (kept4 m ρ c).a4
  a5 := (show W5 m ρ c (Proc.devRef .tc main_arg5) = W4 m ρ c (Proc.devRef .tc main_arg5) from by
    show StableHlo.after hostOps3 _ _ = _
    after_results).trans (kept4 m ρ c).a5
  a6 := (show W5 m ρ c (Proc.devRef .tc main_arg6) = W4 m ρ c (Proc.devRef .tc main_arg6) from by
    show StableHlo.after hostOps3 _ _ = _
    after_results).trans (kept4 m ρ c).a6
  a7 := (show W5 m ρ c (Proc.devRef .tc main_arg7) = W4 m ρ c (Proc.devRef .tc main_arg7) from by
    show StableHlo.after hostOps3 _ _ = _
    after_results).trans (kept4 m ρ c).a7

end Cert.KernelIdeal.RunValue

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibScaledDense.lean ====
/-
  One graph-convolution layer after the neighbour sum, at the extended reals, in its two spellings.

  For a feature array a : [M, K], a column of per-node factors n : [M, 1], weights w : [K, N] and a bias row b : [1, N]:

    rowScale a n (r, c)      = a (r, c) * n (r, 0)                                 -- every row times its node's factor
    dense x w b (r, c)       = (sum over k of x (r, k) * w (k, c)) + b (0, c)      -- a linear layer with a bias row
    denseRelu x w b (r, c)   = max (dense x w b (r, c)) 0

  A host program spells the scale as a product with the column broadcast across the columns, and the layer as a
  contraction plus the bias vector laid out as a row and broadcast down the rows (then a maximum with a broadcast
  zero). A vector-unit body spells the scale as a product with the column broadcast, narrows both operands (the
  identity on extended reals), multiplies on the matrix unit into a zero accumulator, adds the row broadcast down the
  rows and takes the maximum with a splat zero. Both are the functions above, entry by entry; nothing beyond
  0 + x = x is used of the arithmetic, so the infinities need no care.
-/
import proofs.«155898_j19679540150348_2_alg».proof.Proof.LibDotIx2
import proofs.«155898_j19679540150348_2_alg».proof.Proof.LibBroadcastInDim
import proofs.«155898_j19679540150348_2_alg».proof.Proof.LibKeepdims
import Idealize.ShloMosaic.Lib.ValueLayout

noncomputable section

open scoped BigOperators

namespace Cert.Gcn

open Idealize.ShloMosaic Idealize.ShloMosaic.ValueIdx

/-- An M x N array of extended reals. -/
abbrev Mat (M N : ℕ) : Type := FVec Ideal (⟨2, ![M, N]⟩ : Shape) .f32

/-- Every row times its node's factor. -/
def rowScale {M K : ℕ} (a : Mat M K) (n : Mat M 1) : Mat M K :=
  fun i => a i * n (ix2 (i 0) (0 : Fin 1))

/-- A linear layer with a bias row. -/
def dense {M K N : ℕ} (x : Mat M K) (w : Mat K N) (b : Mat 1 N) : Mat M N :=
  fun i => (∑ k : Fin K, x (ix2 (i 0) k) * w (ix2 k (i 1))) + b (ix2 (0 : Fin 1) (i 1))

/-- The same, then the maximum with zero. -/
def denseRelu {M K N : ℕ} (x : Mat M K) (w : Mat K N) (b : Mat 1 N) : Mat M N :=
  fun i => max (dense x w b i) 0

theorem rowScale_ix2 {M K : ℕ} (a : Mat M K) (n : Mat M 1) (r : Fin M) (c : Fin K) :
    rowScale a n (ix2 r c) = a (ix2 r c) * n (ix2 r (0 : Fin 1)) := rfl

theorem dense_ix2 {M K N : ℕ} (x : Mat M K) (w : Mat K N) (b : Mat 1 N) (r : Fin M) (c : Fin N) :
    dense x w b (ix2 r c) = (∑ k : Fin K, x (ix2 r k) * w (ix2 k c)) + b (ix2 (0 : Fin 1) c) := rfl

/-! ## Rows of a block are rows of the whole

  A computation that works on the rows in blocks computes, on a block, the same formula of the blocks it loaded. If each
  loaded block is its array read at the block's rows (the weights and the bias row read whole), the entry at a position
  of the block is the whole-array formula's entry at that position's place in the array. -/

theorem rowScale_rows {Mb M K : ℕ} (x0 : Mat Mb K) (x1 : Mat Mb 1) (A0 : Mat M K) (A1 : Mat M 1)
    (j : (⟨2, ![Mb, K]⟩ : Shape).Idx) (J : (⟨2, ![M, K]⟩ : Shape).Idx)
    (h0 : x0 j = A0 J) (h1 : x1 (ix2 (j 0) (0 : Fin 1)) = A1 (ix2 (J 0) (0 : Fin 1))) :
    rowScale x0 x1 j = rowScale A0 A1 J := by
  unfold rowScale
  rw [h0, h1]

theorem dense_rows {Mb M K N : ℕ} (x0 : Mat Mb K) (x1 : Mat Mb 1) (w : Mat K N) (b : Mat 1 N)
    (A0 : Mat M K) (A1 : Mat M 1) (w' : Mat K N) (b' : Mat 1 N)
    (j : (⟨2, ![Mb, N]⟩ : Shape).Idx) (J : (⟨2, ![M, N]⟩ : Shape).Idx)
    (h0 : ∀ k : Fin K, x0 (ix2 (j 0) k) = A0 (ix2 (J 0) k))
    (h1 : x1 (ix2 (j 0) (0 : Fin 1)) = A1 (ix2 (J 0) (0 : Fin 1)))
    (hw : ∀ k : Fin K, w (ix2 k (j 1)) = w' (ix2 k (J 1)))
    (hb : b (ix2 (0 : Fin 1) (j 1)) = b' (ix2 (0 : Fin 1) (J 1))) :
    dense (rowScale x0 x1) w b j = dense (rowScale A0 A1) w' b' J := by
  show (∑ k : Fin K, rowScale x0 x1 (ix2 (j 0) k) * w (ix2 k (j 1))) + b (ix2 (0 : Fin 1) (j 1))
    = (∑ k : Fin K, rowScale A0 A1 (ix2 (J 0) k) * w' (ix2 k (J 1))) + b' (ix2 (0 : Fin 1) (J 1))
  rw [hb]
  refine congrArg (· + b' (ix2 (0 : Fin 1) (J 1))) (Finset.sum_congr rfl fun k _ => ?_)
  show x0 (ix2 (j 0) k) * x1 (ix2 (j 0) (0 : Fin 1)) * w (ix2 k (j 1)) = A0 (ix2 (J 0) k) * A1 (ix2 (J 0) (0 : Fin 1)) * w' (ix2 k (J 1))
  rw [h0 k, h1, hw k]

theorem denseRelu_rows {Mb M K N : ℕ} (x0 : Mat Mb K) (x1 : Mat Mb 1) (w : Mat K N) (b : Mat 1 N)
    (A0 : Mat M K) (A1 : Mat M 1) (w' : Mat K N) (b' : Mat 1 N)
    (j : (⟨2, ![Mb, N]⟩ : Shape).Idx) (J : (⟨2, ![M, N]⟩ : Shape).Idx)
    (h0 : ∀ k : Fin K, x0 (ix2 (j 0) k) = A0 (ix2 (J 0) k))
    (h1 : x1 (ix2 (j 0) (0 : Fin 1)) = A1 (ix2 (J 0) (0 : Fin 1)))
    (hw : ∀ k : Fin K, w (ix2 k (j 1)) = w' (ix2 k (J 1)))
    (hb : b (ix2 (0 : Fin 1) (j 1)) = b' (ix2 (0 : Fin 1) (J 1))) :
    denseRelu (rowScale x0 x1) w b j = denseRelu (rowScale A0 A1) w' b' J :=
  congrArg (max · 0) (dense_rows x0 x1 w b A0 A1 w' b' j J h0 h1 hw hb)

/-! ## The host's spelling -/

/-- The product with the column broadcast across the columns is the row scale. -/
theorem host_rowScale {M K : ℕ} (a : Mat M K) (n : Mat M 1)
    (h : (⟨2, ![M, 1]⟩ : Shape).BroadcastsInDim (⟨2, ![M, K]⟩ : Shape) ![0, 1]) :
    mulf a (broadcastInDim (⟨2, ![M, K]⟩ : Shape) ![0, 1] h n) = rowScale a n := by
  funext i
  obtain ⟨r, c, rfl⟩ : ∃ (r : Fin M) (c : Fin K), i = ix2 r c := ⟨i 0, i 1, eq_ix2 i⟩
  rw [mulf_apply, broadcastInDim_col_mat_apply, rowScale_ix2]

/-- The contraction plus the bias vector, laid out as a row and broadcast down the rows, is the linear layer. -/
theorem host_dense {M K N : ℕ} {d : DotDims (⟨2, ![M, K]⟩ : Shape) (⟨2, ![K, N]⟩ : Shape) (⟨2, ![M, N]⟩ : Shape)}
    (hd : PlainDot d) (prec : Option ContractPrecision) (x : Mat M K) (w : Mat K N)
    (b : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![M, N]⟩ : Shape) ![0, 1]) :
    addf (Host.dotGeneral d prec x w)
        (broadcastInDim (⟨2, ![M, N]⟩ : Shape) ![0, 1] h2 (broadcastInDim (⟨2, ![1, N]⟩ : Shape) ![1] h1 b))
      = dense x w (broadcastInDim (⟨2, ![1, N]⟩ : Shape) ![1] h1 b) := by
  funext i
  obtain ⟨r, c, rfl⟩ : ∃ (r : Fin M) (c : Fin N), i = ix2 r c := ⟨i 0, i 1, eq_ix2 i⟩
  rw [addf_apply, broadcastInDim_row_mat_apply, dense_ix2]
  simp only [Host.dotGeneral]
  rw [dotGeneral_ix2_any hd]

/-- The maximum with the broadcast zero scalar is the maximum with zero. -/
theorem host_relu {M N : ℕ} (y : Mat M N) (h0 : (⟨0, ![]⟩ : Shape).BroadcastsInDim (⟨2, ![M, N]⟩ : Shape) ![]) :
    maximumf y (broadcastInDim (⟨2, ![M, N]⟩ : Shape) ![] h0 (constant (F := Ideal) (⟨0, ![]⟩ : Shape) .f32 0x00000000#32))
      = fun i => max (y i) 0 := by
  funext i
  rw [maximumf_apply, broadcastInDim_scalar_apply, constant_apply, Ideal.ofBits_zero_f32]

/-! ## The vector unit's spelling -/

/-- The product with the column broadcast is the row scale. -/
theorem unit_rowScale {M K : ℕ} (a : Mat M K) (n : Mat M 1) (h : (⟨2, ![M, 1]⟩ : Shape).Broadcasts (⟨2, ![M, K]⟩ : Shape)) :
    mulf a (broadcastTo (⟨2, ![M, K]⟩ : Shape) n h) = rowScale a n := by
  funext i
  obtain ⟨r, c, rfl⟩ : ∃ (r : Fin M) (c : Fin K), i = ix2 r c := ⟨i 0, i 1, eq_ix2 i⟩
  rw [mulf_apply, broadcastTo_a1_ab_apply, rowScale_ix2]

/-- Narrowed operands multiplied on the matrix unit into zeros, plus the row broadcast down the rows: the linear layer. -/
theorem unit_dense {M K N : ℕ} {d : DotDims (⟨2, ![M, K]⟩ : Shape) (⟨2, ![K, N]⟩ : Shape) (⟨2, ![M, N]⟩ : Shape)}
    (hd : PlainDot d) (prec : Option ContractPrecision) (x : Mat M K) (w : Mat K N) (b : Mat 1 N)
    (hx : FTy.bf16.bits < FTy.f32.bits) (hb : (⟨2, ![1, N]⟩ : Shape).Broadcasts (⟨2, ![M, N]⟩ : Shape)) :
    addf (matmul d prec (truncf .bf16 x hx) (truncf .bf16 w hx) (constant (⟨2, ![M, N]⟩ : Shape) .f32 0x00000000#32))
        (broadcastTo (⟨2, ![M, N]⟩ : Shape) b hb)
      = dense x w b := by
  funext i
  obtain ⟨r, c, rfl⟩ : ∃ (r : Fin M) (c : Fin N), i = ix2 r c := ⟨i 0, i 1, eq_ix2 i⟩
  rw [addf_apply, broadcastTo_1b_ab_apply, dense_ix2]
  show FloatOps.matmul d prec (truncf .bf16 x hx) (truncf .bf16 w hx) (constant (⟨2, ![M, N]⟩ : Shape) .f32 0x00000000#32) (ix2 r c) + _ = _
  rw [matmul_zero_ix2_any hd]
  rfl

/-- The maximum with a splat zero is the maximum with zero. -/
theorem unit_relu {M N : ℕ} (y : Mat M N) :
    maximumf y (broadcast (⟨2, ![M, N]⟩ : Shape) (Scalar.ofBits (F := Ideal) .f32 0x00000000#32)) = fun i => max (y i) 0 := by
  funext i
  rw [maximumf_apply, broadcast_apply]
  show max (y i) (Ideal.ofBits .f32 0x00000000#32) = _
  rw [Ideal.ofBits_zero_f32]

/-- A bias vector recast as a row is the vector laid out as a row. -/
theorem row_of_vec {N : ℕ} (b : FVec Ideal (⟨1, ![N]⟩ : Shape) .f32)
    (hc : (⟨1, ![N]⟩ : Shape).ShapeCasts (⟨2, ![1, N]⟩ : Shape))
    (h1 : (⟨1, ![N]⟩ : Shape).BroadcastsInDim (⟨2, ![1, N]⟩ : Shape) ![1]) :
    shapeCast (⟨2, ![1, N]⟩ : Shape) b hc = broadcastInDim (⟨2, ![1, N]⟩ : Shape) ![1] h1 b := by
  funext i
  obtain ⟨u, c, rfl⟩ : ∃ (u : Fin 1) (c : Fin N), i = ix2 u c := ⟨i 0, i 1, eq_ix2 i⟩
  rw [shapeCast_a_1a_apply, broadcastInDim_vec_row_apply]

end Cert.Gcn

end
-- ==== Proof.Scale0.lean ====
/-
  The first scaling region, read as one array.

  The region cuts the 100000 rows into ten blocks of 10000; at block t the body multiplies the block of the feature
  array by the block of the factor column, broadcast across the 64 columns, and writes the product back to block t of
  the output. Row 10000 t + p of the output therefore depends on row 10000 t + p of the features and of the column only,
  the ten blocks tile the output, and the output array ends holding rowScale of the two arrays the region found.
-/
import proofs.«155898_j19679540150348_2_alg».proof.Proof.Gen.KernelIdeal.Frame
import proofs.«155898_j19679540150348_2_alg».proof.Proof.LibScaledDense
import Idealize.ShloMosaic.Lib.Pipeline.Value

set_option maxRecDepth 16384

noncomputable section

open scoped BigOperators

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's product is the row scale of the two blocks it loaded. -/
theorem scale0_pay (x0 : Vec Ideal S10000x64 .f32) (x1 : Vec Ideal S10000x1 .f32) : k0_pay1 x0 x1 = rowScale x0 x1 := by
  unfold k0_pay1
  exact unit_rowScale x0 x1 _

/-- At point t every window is at block row t and block column 0. -/
theorem scale0_blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem scale0_onto : ∀ q : Fin 10, ∃ t : Fin cfg0.N, win0_2.index t = ![q.val, 0] :=
  (by decide +kernel : ∀ q : Fin 10, ∃ t : Fin grid0.N, win0_2.index t = ![q.val, 0])

/-- What point t writes back is block t of the row scale of the arrays the region found. -/
theorem scale0_flushed (c : Dev nD) (t : Fin cfg0.N) :
    (dat0 V c).flushed 2 t = ((cfg0.win 2).blk t).view.read (Elt Ideal) (rowScale (V c main_arg0) (V c main_arg1)) := by
  show (cfg0.win 2).cut (grid0.coords t) ((dat0 V c).after 2 t) = _
  rw [after0_2]
  unfold out0_2
  rw [View.canon_unit_zero origin2]
  simp only [View.ld_unit_zero (S := S10000x64) origin2, View.ld_unit_zero (S := S10000x1) origin2]
  rw [scale0_pay]
  obtain ⟨e0, e1, e2, e3, e4, e5⟩ := scale0_blocks t
  funext j
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (j 0) (0 : Fin 1)) = ix2 ((((cfg0.win 2).blk t).view.emb j) 0) (0 : Fin 1) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  exact rowScale_rows (iblk0 V c 0 t) (iblk0 V c 1 t) (V c main_arg0) (V c main_arg1) j (((cfg0.win 2).blk t).view.emb j)
    (congrArg (V c main_arg0) h0) (congrArg (V c main_arg1) h1)

/-- An index of the output is in point t's block iff each coordinate is in the block's range on its axis. -/
theorem scale0_mem (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- The ten blocks tile the output: row r is in block r / 10000. -/
theorem scale0_cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := scale0_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [scale0_mem]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the row scale of the feature array and the factor column. -/
theorem scale0_final (c : Dev nD) : (dat0 V c).arrAt 2 cfg0.N = rowScale (V c main_arg0) (V c main_arg1) :=
  (dat0 V c).arrAt_eq_of_cover 2 _ (fun t _ => scale0_flushed V c t) scale0_cover

end Cert.KernelIdeal.RegionValue

end
-- ==== Proof.Layer1.lean ====
/-
  The first linear region, read as one array.

  The region cuts the 100000 rows into ten blocks of 10000; at block t the body scales the block of the summed features
  by the block of the factor column, multiplies by the whole 64 x 64 weights on the matrix unit, adds the bias row and
  takes the maximum with zero. Row 10000 t + p of the output depends on row 10000 t + p of the summed features and of
  the column, and on the whole weights and bias; the ten blocks tile the output, so the output array ends holding
  denseRelu (rowScale sums factors) weights bias of the arrays the region found.
-/
import proofs.«155898_j19679540150348_2_alg».proof.Proof.Gen.KernelIdeal.Frame
import proofs.«155898_j19679540150348_2_alg».proof.Proof.LibScaledDense
import proofs.«155898_j19679540150348_2_alg».proof.Proof.Scale0
import Idealize.ShloMosaic.Lib.Pipeline.Value

set_option maxRecDepth 16384

noncomputable section

open scoped BigOperators

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's matrix product has the dimension numbers of a plain [10000, 64] x [64, 64] product. -/
theorem layer1_plain : PlainDot dot_S10000x64_S64x64_S10000x64_1_0_0_1_n_n where
  rank := rfl
  size := rfl
  l0 := fun j q => by
    unfold DotDims.lhsIdx
    rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
    rfl
  l1 := fun j q => dot_S10000x64_S64x64_S10000x64_1_0_0_1_n_n.lhsIdx_val_of_single rfl j q
  r0 := fun j q => dot_S10000x64_S64x64_S10000x64_1_0_0_1_n_n.rhsIdx_val_of_single rfl j q
  r1 := fun j q => by
    unfold DotDims.rhsIdx
    rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
    rfl

/-- The body's value is the layer of the blocks it loaded: the scaled feature block times the weights, plus the bias row, then the maximum with zero. -/
theorem layer1_pay (x0 : Vec Ideal S10000x64 .f32) (x1 : Vec Ideal S10000x1 .f32) (x2 : Vec Ideal S64x64 .f32) (x3 : Vec Ideal S1x64 .f32) :
    k1_pay1 x0 x1 x2 x3 = denseRelu (rowScale x0 x1) x2 x3 := by
  unfold k1_pay1
  simp only [shapeCast_self]
  rw [unit_rowScale, unit_dense layer1_plain, unit_relu]
  rfl

/-- At point t the feature, factor and output windows are at block row t; the weights and the bias row are read whole. -/
theorem layer1_blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row is some point's. -/
theorem layer1_onto : ∀ q : Fin 10, ∃ t : Fin cfg1.N, win1_4.index t = ![q.val, 0] :=
  (by decide +kernel : ∀ q : Fin 10, ∃ t : Fin grid1.N, win1_4.index t = ![q.val, 0])

/-- What point t writes back is block t of the layer of the arrays the region found. -/
theorem layer1_flushed (c : Dev nD) (t : Fin cfg1.N) :
    (dat1 V c).flushed 4 t = ((cfg1.win 4).blk t).view.read (Elt Ideal)
      (denseRelu (rowScale (V c main_v10) (V c main_arg1)) (V c main_arg4) (V c main_v11)) := by
  show (cfg1.win 4).cut (grid1.coords t) ((dat1 V c).after 4 t) = _
  rw [after1_4]
  unfold out1_4
  rw [View.canon_unit_zero origin2]
  simp only [View.ld_unit_zero (S := S10000x64) origin2, View.ld_unit_zero (S := S10000x1) origin2,
    View.ld_unit_zero (S := S64x64) origin2, View.ld_unit_zero (S := S1x64) origin2]
  rw [layer1_pay]
  obtain ⟨e0, e1, e2, e3, e4, e5, e6, e7, e8, e9⟩ := layer1_blocks t
  funext j
  have h0 : ∀ k : Fin 64, ((cfg1.win 0).blk t).view.emb (ix2 (j 0) k) = ix2 ((((cfg1.win 4).blk t).view.emb j) 0) k := fun k => by
    funext a; apply Fin.ext
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * k.val = k.val; omega
  have h1 : ((cfg1.win 1).blk t).view.emb (ix2 (j 0) (0 : Fin 1)) = ix2 ((((cfg1.win 4).blk t).view.emb j) 0) (0 : Fin 1) := by
    funext a; apply Fin.ext
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 1 + 1 * 0 = 0; omega
  have h2 : ∀ k : Fin 64, ((cfg1.win 2).blk t).view.emb (ix2 k (j 1)) = ix2 k ((((cfg1.win 4).blk t).view.emb j) 1) := fun k => by
    funext a; apply Fin.ext
    match a with
    | ⟨0, _⟩ => show win1_2.index t (0 : Fin 2) * 64 + 1 * k.val = k.val; omega
    | ⟨1, _⟩ => show win1_2.index t (1 : Fin 2) * 64 + 1 * (j 1).val = win1_4.index t (1 : Fin 2) * 64 + 1 * (j 1).val; omega
  have h3 : ((cfg1.win 3).blk t).view.emb (ix2 (0 : Fin 1) (j 1)) = ix2 (0 : Fin 1) ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  exact denseRelu_rows (iblk1 V c 0 t) (iblk1 V c 1 t) (iblk1 V c 2 t) (iblk1 V c 3 t)
    (V c main_v10) (V c main_arg1) (V c main_arg4) (V c main_v11) j (((cfg1.win 4).blk t).view.emb j)
    (fun k => congrArg (V c main_v10) (h0 k)) (congrArg (V c main_arg1) h1)
    (fun k => congrArg (V c main_arg4) (h2 k)) (congrArg (V c main_v11) h3)

/-- An index of the output is in point t's block iff each coordinate is in the block's range on its axis. -/
theorem layer1_mem (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v12).slice (win1_4.rect t)).set ↔ _
  rw [View.set_slice_whole, Rect.mem_set_unit]
  exact Iff.rfl

/-- The ten blocks tile the output: row r is in block r / 10000. -/
theorem layer1_cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := layer1_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [layer1_mem]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- The output array after the region: the layer of the arrays the region found. -/
theorem layer1_final (c : Dev nD) : (dat1 V c).arrAt 4 cfg1.N
    = denseRelu (rowScale (V c main_v10) (V c main_arg1)) (V c main_arg4) (V c main_v11) :=
  (dat1 V c).arrAt_eq_of_cover 4 _ (fun t _ => layer1_flushed V c t) layer1_cover

end Cert.KernelIdeal.RegionValue

end
-- ==== Proof.Scale2.lean ====
/-
  The second scaling region, read as one array.

  As the first one, on the first layer's output: at block t the body multiplies rows 10000 t .. 10000 t + 9999 of that
  array by the same rows of the factor column, broadcast across the 64 columns, and writes the product back to block t of
  its output; the ten blocks tile the output, which ends holding rowScale of the two arrays the region found.
-/
import proofs.«155898_j19679540150348_2_alg».proof.Proof.Gen.KernelIdeal.Frame
import proofs.«155898_j19679540150348_2_alg».proof.Proof.LibScaledDense
import proofs.«155898_j19679540150348_2_alg».proof.Proof.Scale0
import Idealize.ShloMosaic.Lib.Pipeline.Value

set_option maxRecDepth 16384

noncomputable section

open scoped BigOperators

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's product is the row scale of the two blocks it loaded. -/
theorem scale2_pay (x0 : Vec Ideal S10000x64 .f32) (x1 : Vec Ideal S10000x1 .f32) : k2_pay1 x0 x1 = rowScale x0 x1 := by
  unfold k2_pay1
  simp only [shapeCast_self]
  exact unit_rowScale x0 x1 _

/-- At point t every window is at block row t and block column 0. -/
theorem scale2_blocks : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Every block row is some point's. -/
theorem scale2_onto : ∀ q : Fin 10, ∃ t : Fin cfg2.N, win2_2.index t = ![q.val, 0] :=
  (by decide +kernel : ∀ q : Fin 10, ∃ t : Fin grid2.N, win2_2.index t = ![q.val, 0])

/-- What point t writes back is block t of the row scale of the arrays the region found. -/
theorem scale2_flushed (c : Dev nD) (t : Fin cfg2.N) :
    (dat2 V c).flushed 2 t = ((cfg2.win 2).blk t).view.read (Elt Ideal) (rowScale (V c main_v12) (V c main_arg1)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S10000x1) origin2]
  rw [scale2_pay]
  obtain ⟨e0, e1, e2, e3, e4, e5⟩ := scale2_blocks t
  funext j
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (j 0) (0 : Fin 1)) = ix2 ((((cfg2.win 2).blk t).view.emb j) 0) (0 : Fin 1) := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 1 + 1 * 0 = 0; omega
  exact rowScale_rows (iblk2 V c 0 t) (iblk2 V c 1 t) (V c main_v12) (V c main_arg1) j (((cfg2.win 2).blk t).view.emb j)
    (congrArg (V c main_v12) h0) (congrArg (V c main_arg1) h1)

/-- An index of the output is in point t's block iff each coordinate is in the block's range on its axis. -/
theorem scale2_mem (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v13).slice (win2_2.rect t)).set ↔ _
  rw [View.set_slice_whole, Rect.mem_set_unit]
  exact Iff.rfl

/-- The ten blocks tile the output: row r is in block r / 10000. -/
theorem scale2_cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := scale2_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [scale2_mem]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region: the row scale of the first layer's output and the factor column. -/
theorem scale2_final (c : Dev nD) : (dat2 V c).arrAt 2 cfg2.N = rowScale (V c main_v12) (V c main_arg1) :=
  (dat2 V c).arrAt_eq_of_cover 2 _ (fun t _ => scale2_flushed V c t) scale2_cover

end Cert.KernelIdeal.RegionValue

end
-- ==== Proof.Layer3.lean ====
/-
  The second linear region, read as one array.

  As the first linear region, with 64 x 40 weights, a 1 x 40 bias row and no maximum: at block t the body scales the block
  of the second neighbour sum by the block of the factor column, multiplies by the whole weights on the matrix unit and
  adds the bias row. The ten blocks tile the 100000 x 40 output, which ends holding
  dense (rowScale sums factors) weights bias of the arrays the region found.
-/
import proofs.«155898_j19679540150348_2_alg».proof.Proof.Gen.KernelIdeal.Frame
import proofs.«155898_j19679540150348_2_alg».proof.Proof.LibScaledDense
import proofs.«155898_j19679540150348_2_alg».proof.Proof.Scale0
import Idealize.ShloMosaic.Lib.Pipeline.Value

set_option maxRecDepth 16384

noncomputable section

open scoped BigOperators

namespace Cert.KernelIdeal.RegionValue

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's matrix product has the dimension numbers of a plain [10000, 64] x [64, 40] product. -/
theorem layer3_plain : PlainDot dot_S10000x64_S64x40_S10000x40_1_0_0_1_n_n where
  rank := rfl
  size := rfl
  l0 := fun j q => by
    unfold DotDims.lhsIdx
    rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
    rfl
  l1 := fun j q => dot_S10000x64_S64x40_S10000x40_1_0_0_1_n_n.lhsIdx_val_of_single rfl j q
  r0 := fun j q => dot_S10000x64_S64x40_S10000x40_1_0_0_1_n_n.rhsIdx_val_of_single rfl j q
  r1 := fun j q => by
    unfold DotDims.rhsIdx
    rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
    rfl

/-- The body's value is the layer of the blocks it loaded: the scaled feature block times the weights, plus the bias row. -/
theorem layer3_pay (x0 : Vec Ideal S10000x64 .f32) (x1 : Vec Ideal S10000x1 .f32) (x2 : Vec Ideal S64x40 .f32) (x3 : Vec Ideal S1x40 .f32) :
    k3_pay1 x0 x1 x2 x3 = dense (rowScale x0 x1) x2 x3 := by
  unfold k3_pay1
  simp only [shapeCast_self]
  rw [unit_rowScale, unit_dense layer3_plain]

/-- At point t the feature, factor and output windows are at block row t; the weights and the bias row are read whole. -/
theorem layer3_blocks : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every block row is some point's. -/
theorem layer3_onto : ∀ q : Fin 10, ∃ t : Fin cfg3.N, win3_4.index t = ![q.val, 0] :=
  (by decide +kernel : ∀ q : Fin 10, ∃ t : Fin grid3.N, win3_4.index t = ![q.val, 0])

/-- What point t writes back is block t of the layer of the arrays the region found. -/
theorem layer3_flushed (c : Dev nD) (t : Fin cfg3.N) :
    (dat3 V c).flushed 4 t = ((cfg3.win 4).blk t).view.read (Elt Ideal)
      (dense (rowScale (V c main_v23) (V c main_arg1)) (V c main_arg6) (V c main_v24)) := by
  show (cfg3.win 4).cut (grid3.coords t) ((dat3 V c).after 4 t) = _
  rw [after3_4]
  unfold out3_4
  rw [View.canon_unit_zero origin2]
  simp only [View.ld_unit_zero (S := S10000x64) origin2, View.ld_unit_zero (S := S10000x1) origin2,
    View.ld_unit_zero (S := S64x40) origin2, View.ld_unit_zero (S := S1x40) origin2]
  rw [layer3_pay]
  obtain ⟨e0, e1, e2, e3, e4, e5, e6, e7, e8, e9⟩ := layer3_blocks t
  funext j
  have h0 : ∀ k : Fin 64, ((cfg3.win 0).blk t).view.emb (ix2 (j 0) k) = ix2 ((((cfg3.win 4).blk t).view.emb j) 0) k := fun k => by
    funext a; apply Fin.ext
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 64 + 1 * k.val = k.val; omega
  have h1 : ((cfg3.win 1).blk t).view.emb (ix2 (j 0) (0 : Fin 1)) = ix2 ((((cfg3.win 4).blk t).view.emb j) 0) (0 : Fin 1) := by
    funext a; apply Fin.ext
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 1 + 1 * 0 = 0; omega
  have h2 : ∀ k : Fin 64, ((cfg3.win 2).blk t).view.emb (ix2 k (j 1)) = ix2 k ((((cfg3.win 4).blk t).view.emb j) 1) := fun k => by
    funext a; apply Fin.ext
    match a with
    | ⟨0, _⟩ => show win3_2.index t (0 : Fin 2) * 64 + 1 * k.val = k.val; omega
    | ⟨1, _⟩ => show win3_2.index t (1 : Fin 2) * 40 + 1 * (j 1).val = win3_4.index t (1 : Fin 2) * 40 + 1 * (j 1).val; omega
  have h3 : ((cfg3.win 3).blk t).view.emb (ix2 (0 : Fin 1) (j 1)) = ix2 (0 : Fin 1) ((((cfg3.win 4).blk t).view.emb j) 1) := by
    funext a; apply Fin.ext
    match a with
    | ⟨0, _⟩ => show win3_3.index t (0 : Fin 2) * 1 + 1 * 0 = 0; omega
    | ⟨1, _⟩ => show win3_3.index t (1 : Fin 2) * 40 + 1 * (j 1).val = win3_4.index t (1 : Fin 2) * 40 + 1 * (j 1).val; omega
  exact dense_rows (iblk3 V c 0 t) (iblk3 V c 1 t) (iblk3 V c 2 t) (iblk3 V c 3 t)
    (V c main_v23) (V c main_arg1) (V c main_arg6) (V c main_v24) j (((cfg3.win 4).blk t).view.emb j)
    (fun k => congrArg (V c main_v23) (h0 k)) (congrArg (V c main_arg1) h1)
    (fun k => congrArg (V c main_arg6) (h2 k)) (congrArg (V c main_v24) h3)

/-- An index of the output is in point t's block iff each coordinate is in the block's range on its axis. -/
theorem layer3_mem (t : Fin cfg3.N) (i : S100000x40.Idx) :
    i ∈ ((cfg3.win 4).blk t).view.set ↔ ∀ a : Fin 2, win3_4.index t a * S10000x40.size a ≤ (i a).val ∧ (i a).val < win3_4.index t a * S10000x40.size a + S10000x40.size a := by
  show i ∈ ((View.whole main_v25).slice (win3_4.rect t)).set ↔ _
  rw [View.set_slice_whole, Rect.mem_set_unit]
  exact Iff.rfl

/-- The ten blocks tile the output: row r is in block r / 10000. -/
theorem layer3_cover (i : S100000x40.Idx) : ∃ t : Fin cfg3.N, (cfg3.win 4).flush t = true ∧ i ∈ ((cfg3.win 4).blk t).view.set := by
  have hi0 : (i 0).val < 100000 := (i 0).isLt
  have hi1 : (i 1).val < 40 := (i 1).isLt
  obtain ⟨t, ht⟩ := layer3_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [layer3_mem]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 40 ≤ (i 1).val ∧ (i 1).val < win3_4.index t (1 : Fin 2) * 40 + 40; omega

/-- The output array after the region: the layer of the arrays the region found. -/
theorem layer3_final (c : Dev nD) : (dat3 V c).arrAt 4 cfg3.N
    = dense (rowScale (V c main_v23) (V c main_arg1)) (V c main_arg6) (V c main_v24) :=
  (dat3 V c).arrAt_eq_of_cover 4 _ (fun t _ => layer3_flushed V c t) layer3_cover

end Cert.KernelIdeal.RegionValue

end
-- ==== Proof.Network.lean ====
/-
  The neighbour sum, and the two-layer network as one function of the argument arrays.

  Between the Pallas regions the program sums, for every node, the feature rows of its in-neighbours: the source
  node numbers (negative ones wrapped by the node count) gather rows of the feature array, and the destination
  numbers scatter-add the gathered rows into a zero array. The kernel's program and the reference spell this stretch
  with the same host operations, so it is kept here as ONE function of the feature array and the two edge lists and is
  never opened: the two programs agree on it as soon as they agree on its feature operand.

  The whole network is then   dense (rowScale (sum (rowScale (denseRelu (rowScale (sum (rowScale x n)) n) w1 b1) n)) n) w2 b2 .
-/
import proofs.«155898_j19679540150348_2_alg».proof.Proof.LibScaledDense
import Idealize.ShloMosaic.PureOps

set_option maxRecDepth 16384

noncomputable section

open scoped BigOperators

namespace Cert.Gcn

open Idealize.ShloMosaic

/-- The dimension numbers and shape facts of the neighbour sum's host operations: the row gather, the row scatter, and
    the three broadcasts (a word to the edge list, an edge list to a column, zero to the feature shape). -/
structure SumDims where
  gather : GatherDims (⟨2, ![100000, 64]⟩ : Shape) (⟨2, ![1600000, 1]⟩ : Shape) (⟨2, ![1600000, 64]⟩ : Shape)
  scatter : ScatterDims (⟨2, ![100000, 64]⟩ : Shape) (⟨2, ![1600000, 1]⟩ : Shape) (⟨2, ![1600000, 64]⟩ : Shape)
  word : (⟨0, ![]⟩ : Shape).BroadcastsInDim (⟨1, ![1600000]⟩ : Shape) (![] : Fin 0 → Fin 1)
  column : (⟨1, ![1600000]⟩ : Shape).BroadcastsInDim (⟨2, ![1600000, 1]⟩ : Shape) (![0] : Fin 1 → Fin 2)
  zeros : (⟨0, ![]⟩ : Shape).BroadcastsInDim (⟨2, ![100000, 64]⟩ : Shape) (![] : Fin 0 → Fin 2)

/-- For every node the sum of the feature rows of its in-neighbours, as the host operations spell it. -/
def neighbourSum (D : SumDims) (h : Mat 100000 64) (src dst : IVec (⟨1, ![1600000]⟩ : Shape) 32) : Mat 100000 64 :=
  Host.scatterAdd (F := Ideal) D.scatter
    (broadcastInDim (⟨2, ![100000, 64]⟩ : Shape) ![] D.zeros (constant (F := Ideal) (⟨0, ![]⟩ : Shape) .f32 0x00000000#32))
    (broadcastInDim (⟨2, ![1600000, 1]⟩ : Shape) ![0] D.column dst)
    (Host.gather D.gather h (broadcastInDim (⟨2, ![1600000, 1]⟩ : Shape) ![0] D.column
      (select (cmpi .slt src (broadcastInDim (⟨1, ![1600000]⟩ : Shape) ![] D.word (constantI (⟨0, ![]⟩ : Shape) 32 0#32)))
        (addi src (broadcastInDim (⟨1, ![1600000]⟩ : Shape) ![] D.word (constantI (⟨0, ![]⟩ : Shape) 32 100000#32))) src)))

/-- The two-layer network: scale, neighbour sum, scale, linear layer (with the maximum with zero after the first). -/
def network (D : SumDims) (x : Mat 100000 64) (n : Mat 100000 1) (src dst : IVec (⟨1, ![1600000]⟩ : Shape) 32)
    (w1 : Mat 64 64) (b1 : Mat 1 64) (w2 : Mat 64 40) (b2 : Mat 1 40) : Mat 100000 40 :=
  dense (rowScale (neighbourSum D (rowScale (denseRelu (rowScale (neighbourSum D (rowScale x n) src dst) n) w1 b1) n) src dst) n) w2 b2

/-- The network does not depend on how a bias vector becomes a row: laid out as a row by a broadcast, or recast. -/
theorem network_rows (D D' : SumDims) (hD : D = D') (x : Mat 100000 64) (n : Mat 100000 1)
    (src dst : IVec (⟨1, ![1600000]⟩ : Shape) 32) (w1 : Mat 64 64) (b1 : FVec Ideal (⟨1, ![64]⟩ : Shape) .f32)
    (w2 : Mat 64 40) (b2 : FVec Ideal (⟨1, ![40]⟩ : Shape) .f32)
    (h1 : (⟨1, ![64]⟩ : Shape).BroadcastsInDim (⟨2, ![1, 64]⟩ : Shape) ![1]) (c1 : (⟨1, ![64]⟩ : Shape).ShapeCasts (⟨2, ![1, 64]⟩ : Shape))
    (h2 : (⟨1, ![40]⟩ : Shape).BroadcastsInDim (⟨2, ![1, 40]⟩ : Shape) ![1]) (c2 : (⟨1, ![40]⟩ : Shape).ShapeCasts (⟨2, ![1, 40]⟩ : Shape)) :
    network D x n src dst w1 (broadcastInDim (⟨2, ![1, 64]⟩ : Shape) ![1] h1 b1) w2 (broadcastInDim (⟨2, ![1, 40]⟩ : Shape) ![1] h2 b2)
      = network D' x n src dst w1 (shapeCast (⟨2, ![1, 64]⟩ : Shape) b1 c1) w2 (shapeCast (⟨2, ![1, 40]⟩ : Shape) b2 c2) := by
  subst hD
  rw [row_of_vec b1 c1 h1, row_of_vec b2 c2 h2]

end Cert.Gcn

end
-- ==== Proof.KernelValue.lean ====
/-
  The kernel's result as one function of the argument arrays.

  Read back from the last boundary: the result array is the second linear layer of the second neighbour sum, which sums
  the second scaling region's output, which scales the first linear layer's output, and so on down to the feature
  array. Each region's output is the whole-array function its blocks tile (one module per region); each host stretch
  is the neighbour sum of the array before it, plus the recast of a bias vector as a row; and every argument is read at
  its launch contents. The composition is Cert.Gcn.network at the kernel program's dimension numbers.
-/
import proofs.«155898_j19679540150348_2_alg».proof.Proof.KernelRun
import proofs.«155898_j19679540150348_2_alg».proof.Proof.Scale0
import proofs.«155898_j19679540150348_2_alg».proof.Proof.Layer1
import proofs.«155898_j19679540150348_2_alg».proof.Proof.Scale2
import proofs.«155898_j19679540150348_2_alg».proof.Proof.Layer3
import proofs.«155898_j19679540150348_2_alg».proof.Proof.Network
import Idealize.ShloMosaic.Lib.StableHlo.Run

set_option maxRecDepth 16384

noncomputable section

open scoped BigOperators

namespace Cert.KernelIdeal.RunValue

open Cert.KernelIdeal Cert.KernelIdeal.Gen Cert.Gcn Cert.KernelIdeal.RegionValue
open Idealize.ShloMosaic Idealize.ShloMosaic.TcCoe Idealize.ShloMosaic.StableHlo Idealize.SL.Sem

variable (m : (ℓ : Loc nD τ sig) → Buf (Elt Ideal) ℓ) (ρ : Dev nD → PrngReg)

/-- The dimension numbers and shape facts of the kernel program's two neighbour sums. -/
def sumDims : SumDims where
  gather := gather_S100000x64_S1600000x1_S1600000x64_1_0_n_n_0_1_164
  scatter := scatter_S100000x64_S1600000x1_S1600000x64_1_0_0_1
  word := bcast_S_S1600000
  column := bcast_S1600000_S1600000x1_0
  zeros := bcast_S_S100000x64

/-- After the first scaling region its output holds the scaled features. -/
theorem scaled1 (c : Dev nD) : W1 m ρ c (Proc.devRef .tc main_v0) = rowScale (m ((c : Thread nD τ).loc main_arg0)) (m ((c : Thread nD τ).loc main_arg1)) :=
  (W1_arr m ρ c 2).trans (scale0_final (V0 m ρ) c)

/-- The first host stretch sums the scaled features over the in-neighbours ... -/
theorem summed1 (c : Dev nD) : W2 m ρ c (Proc.devRef .tc main_v10)
    = neighbourSum sumDims (W1 m ρ c (Proc.devRef .tc main_v0)) (W1 m ρ c (Proc.devRef .tc main_arg2)) (W1 m ρ c (Proc.devRef .tc main_arg3)) := by
  show StableHlo.after hostOps1 _ _ = _
  after_results
  rfl

/-- ... and recasts the first bias vector as a row. -/
theorem biasRow1 (c : Dev nD) : W2 m ρ c (Proc.devRef .tc main_v11)
    = shapeCast S1x64 (W1 m ρ c (Proc.devRef .tc main_arg5)) shapeCasts_S64_S1x64 := by
  show StableHlo.after hostOps1 _ _ = _
  after_results
  rfl

/-- After the first linear region its output holds the first layer. -/
theorem layered1 (c : Dev nD) : W3 m ρ c (Proc.devRef .tc main_v12)
    = denseRelu (rowScale (neighbourSum sumDims (rowScale (m ((c : Thread nD τ).loc main_arg0)) (m ((c : Thread nD τ).loc main_arg1))) (m ((c : Thread nD τ).loc main_arg2)) (m ((c : Thread nD τ).loc main_arg3))) (m ((c : Thread nD τ).loc main_arg1)))
        (m ((c : Thread nD τ).loc main_arg4)) (shapeCast S1x64 (m ((c : Thread nD τ).loc main_arg5)) shapeCasts_S64_S1x64) := by
  refine ((W3_arr m ρ c 4).trans (layer1_final (V2 m ρ) c)).trans ?_
  show denseRelu (rowScale (W2 m ρ c (Proc.devRef .tc main_v10)) (W2 m ρ c (Proc.devRef .tc main_arg1))) (W2 m ρ c (Proc.devRef .tc main_arg4)) (W2 m ρ c (Proc.devRef .tc main_v11)) = _
  rw [summed1, biasRow1, scaled1, (kept2 m ρ c).a1, (kept2 m ρ c).a4, (kept1 m ρ c).a2, (kept1 m ρ c).a3, (kept1 m ρ c).a5]

/-- After the second scaling region its output holds the scaled first layer. -/
theorem scaled2 (c : Dev nD) : W4 m ρ c (Proc.devRef .tc main_v13) = rowScale (W3 m ρ c (Proc.devRef .tc main_v12)) (m ((c : Thread nD τ).loc main_arg1)) := by
  refine ((W4_arr m ρ c 2).trans (scale2_final (V3 m ρ) c)).trans ?_
  show rowScale (W3 m ρ c (Proc.devRef .tc main_v12)) (W3 m ρ c (Proc.devRef .tc main_arg1)) = _
  rw [(kept3 m ρ c).a1]

/-- The second host stretch sums it over the in-neighbours ... -/
theorem summed2 (c : Dev nD) : W5 m ρ c (Proc.devRef .tc main_v23)
    = neighbourSum sumDims (W4 m ρ c (Proc.devRef .tc main_v13)) (W4 m ρ c (Proc.devRef .tc main_arg2)) (W4 m ρ c (Proc.devRef .tc main_arg3)) := by
  show StableHlo.after hostOps3 _ _ = _
  after_results
  rfl

/-- ... and recasts the second bias vector as a row. -/
theorem biasRow2 (c : Dev nD) : W5 m ρ c (Proc.devRef .tc main_v24)
    = shapeCast S1x40 (W4 m ρ c (Proc.devRef .tc main_arg7)) shapeCasts_S40_S1x40 := by
  show StableHlo.after hostOps3 _ _ = _
  after_results
  rfl

/-- The result array at the last boundary is the network of the argument arrays. -/
theorem result_eq (c : Dev nD) : W6 m ρ c (Proc.devRef .tc main_v25)
    = network sumDims (m ((c : Thread nD τ).loc main_arg0)) (m ((c : Thread nD τ).loc main_arg1)) (m ((c : Thread nD τ).loc main_arg2)) (m ((c : Thread nD τ).loc main_arg3))
        (m ((c : Thread nD τ).loc main_arg4)) (shapeCast S1x64 (m ((c : Thread nD τ).loc main_arg5)) shapeCasts_S64_S1x64)
        (m ((c : Thread nD τ).loc main_arg6)) (shapeCast S1x40 (m ((c : Thread nD τ).loc main_arg7)) shapeCasts_S40_S1x40) := by
  refine ((W6_arr m ρ c 4).trans (layer3_final (V5 m ρ) c)).trans ?_
  show dense (rowScale (W5 m ρ c (Proc.devRef .tc main_v23)) (W5 m ρ c (Proc.devRef .tc main_arg1))) (W5 m ρ c (Proc.devRef .tc main_arg6)) (W5 m ρ c (Proc.devRef .tc main_v24)) = _
  rw [summed2, biasRow2, scaled2, layered1, (kept5 m ρ c).a1, (kept5 m ρ c).a6, (kept4 m ρ c).a2, (kept4 m ρ c).a3, (kept4 m ρ c).a7]
  rfl

end Cert.KernelIdeal.RunValue

end
-- ==== Proof.RefValue.lean ====
/-
  The reference's result as the same function of the argument arrays.

  The reference is one straight line of host operations: the product with the factor column broadcast across the
  columns is the row scale; the gather and scatter-add between are the neighbour sum, spelled as in the kernel's
  program; the contraction plus the bias vector laid out as a row and broadcast down the rows is the linear layer; and
  the maximum with a broadcast zero is the maximum with zero. Stage by stage the line is Cert.Gcn.network at the
  reference's dimension numbers, with each bias vector laid out as a row.
-/
import proofs.«155898_j19679540150348_2_alg».proof.Proof.Gen.ReferenceIdeal.Read
import proofs.«155898_j19679540150348_2_alg».proof.Proof.Network

set_option maxRecDepth 16384

noncomputable section

open scoped BigOperators

namespace Cert.ReferenceIdeal.RefValue

open Cert.ReferenceIdeal Cert.ReferenceIdeal.Gen Cert.Gcn
open Idealize.ShloMosaic Idealize.ShloMosaic.ValueIdx Idealize.SL.Sem

/-- The dimension numbers and shape facts of the reference's two neighbour sums. -/
def sumDims : SumDims where
  gather := gather_S100000x64_S1600000x1_S1600000x64_1_0_n_n_0_1_164
  scatter := scatter_S100000x64_S1600000x1_S1600000x64_1_0_0_1
  word := bcast_S_S1600000
  column := bcast_S1600000_S1600000x1_0
  zeros := bcast_S_S100000x64

/-- The first contraction has the dimension numbers of a plain [100000, 64] x [64, 64] product. -/
theorem dot1_plain : PlainDot dot_S100000x64_S64x64_S100000x64_1_0_0_1_n_n :=
  ⟨rfl, rfl, Read.lhs_main_v14_0, Read.lhs_main_v14_1, Read.rhs_main_v14_0, Read.rhs_main_v14_1⟩

/-- The second contraction has the dimension numbers of a plain [100000, 64] x [64, 40] product. -/
theorem dot2_plain : PlainDot dot_S100000x64_S64x40_S100000x40_1_0_0_1_n_n :=
  ⟨rfl, rfl, Read.lhs_main_v33_0, Read.lhs_main_v33_1, Read.rhs_main_v33_0, Read.rhs_main_v33_1⟩

/-- The first product with the broadcast column is the row scale of the features. -/
theorem scaled1 (x0 : (⟨S100000x64, .f32⟩ : BufTy).Contents (Elt Ideal)) (x1 : (⟨S100000x1, .f32⟩ : BufTy).Contents (Elt Ideal)) :
    Read.val_main_v1 (F := Ideal) x0 x1 = rowScale x0 x1 := by
  unfold Read.val_main_v1 Read.val_main_v0
  exact host_rowScale x0 x1 _

/-- The first gather and scatter-add are the neighbour sum of it. -/
theorem summed1 (x0 : (⟨S100000x64, .f32⟩ : BufTy).Contents (Elt Ideal)) (x1 : (⟨S100000x1, .f32⟩ : BufTy).Contents (Elt Ideal)) (x2 x3 : (⟨S1600000, .i32⟩ : BufTy).Contents (Elt Ideal)) :
    Read.val_main_v11 (F := Ideal) x0 x1 x2 x3 = neighbourSum sumDims (Read.val_main_v1 (F := Ideal) x0 x1) x2 x3 := rfl

theorem scaled2 (x0 : (⟨S100000x64, .f32⟩ : BufTy).Contents (Elt Ideal)) (x1 : (⟨S100000x1, .f32⟩ : BufTy).Contents (Elt Ideal)) (x2 x3 : (⟨S1600000, .i32⟩ : BufTy).Contents (Elt Ideal)) :
    Read.val_main_v13 (F := Ideal) x0 x1 x2 x3 = rowScale (Read.val_main_v11 (F := Ideal) x0 x1 x2 x3) x1 := by
  unfold Read.val_main_v13 Read.val_main_v12
  exact host_rowScale _ x1 _

/-- The first contraction plus bias, then the maximum with zero: the first layer. -/
theorem layered1 (x0 : (⟨S100000x64, .f32⟩ : BufTy).Contents (Elt Ideal)) (x1 : (⟨S100000x1, .f32⟩ : BufTy).Contents (Elt Ideal)) (x2 x3 : (⟨S1600000, .i32⟩ : BufTy).Contents (Elt Ideal)) (x4 : (⟨S64x64, .f32⟩ : BufTy).Contents (Elt Ideal)) (x5 : (⟨S64, .f32⟩ : BufTy).Contents (Elt Ideal)) :
    Read.val_main_v18 (F := Ideal) x0 x1 x2 x3 x4 x5
      = denseRelu (Read.val_main_v13 (F := Ideal) x0 x1 x2 x3) x4 (broadcastInDim S1x64 ![1] bcast_S64_S1x64_1 x5) := by
  unfold Read.val_main_v18 Read.val_main_call0_v0 Read.val_main_call0_cst Read.val_main_v17 Read.val_main_v16 Read.val_main_v15 Read.val_main_v14
  rw [host_dense dot1_plain, host_relu]
  rfl

theorem scaled3 (x0 : (⟨S100000x64, .f32⟩ : BufTy).Contents (Elt Ideal)) (x1 : (⟨S100000x1, .f32⟩ : BufTy).Contents (Elt Ideal)) (x2 x3 : (⟨S1600000, .i32⟩ : BufTy).Contents (Elt Ideal)) (x4 : (⟨S64x64, .f32⟩ : BufTy).Contents (Elt Ideal)) (x5 : (⟨S64, .f32⟩ : BufTy).Contents (Elt Ideal)) :
    Read.val_main_v20 (F := Ideal) x0 x1 x2 x3 x4 x5 = rowScale (Read.val_main_v18 (F := Ideal) x0 x1 x2 x3 x4 x5) x1 := by
  unfold Read.val_main_v20 Read.val_main_v19
  exact host_rowScale _ x1 _

theorem summed2 (x0 : (⟨S100000x64, .f32⟩ : BufTy).Contents (Elt Ideal)) (x1 : (⟨S100000x1, .f32⟩ : BufTy).Contents (Elt Ideal)) (x2 x3 : (⟨S1600000, .i32⟩ : BufTy).Contents (Elt Ideal)) (x4 : (⟨S64x64, .f32⟩ : BufTy).Contents (Elt Ideal)) (x5 : (⟨S64, .f32⟩ : BufTy).Contents (Elt Ideal)) :
    Read.val_main_v30 (F := Ideal) x0 x1 x2 x3 x4 x5 = neighbourSum sumDims (Read.val_main_v20 (F := Ideal) x0 x1 x2 x3 x4 x5) x2 x3 := rfl

theorem scaled4 (x0 : (⟨S100000x64, .f32⟩ : BufTy).Contents (Elt Ideal)) (x1 : (⟨S100000x1, .f32⟩ : BufTy).Contents (Elt Ideal)) (x2 x3 : (⟨S1600000, .i32⟩ : BufTy).Contents (Elt Ideal)) (x4 : (⟨S64x64, .f32⟩ : BufTy).Contents (Elt Ideal)) (x5 : (⟨S64, .f32⟩ : BufTy).Contents (Elt Ideal)) :
    Read.val_main_v32 (F := Ideal) x0 x1 x2 x3 x4 x5 = rowScale (Read.val_main_v30 (F := Ideal) x0 x1 x2 x3 x4 x5) x1 := by
  unfold Read.val_main_v32 Read.val_main_v31
  exact host_rowScale _ x1 _

/-- The second contraction plus bias: the second layer. -/
theorem layered2 (x0 : (⟨S100000x64, .f32⟩ : BufTy).Contents (Elt Ideal)) (x1 : (⟨S100000x1, .f32⟩ : BufTy).Contents (Elt Ideal)) (x2 x3 : (⟨S1600000, .i32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) :
    Read.val_main_v36 (F := Ideal) x0 x1 x2 x3 x4 x5 x6 x7
      = dense (Read.val_main_v32 (F := Ideal) x0 x1 x2 x3 x4 x5) x6 (broadcastInDim S1x40 ![1] bcast_S40_S1x40_1 x7) := by
  unfold Read.val_main_v36 Read.val_main_v35 Read.val_main_v34 Read.val_main_v33
  exact host_dense dot2_plain none _ x6 x7 _ _

/-- The reference's last stage is the network of the argument arrays. -/
theorem value_eq (x0 : (⟨S100000x64, .f32⟩ : BufTy).Contents (Elt Ideal)) (x1 : (⟨S100000x1, .f32⟩ : BufTy).Contents (Elt Ideal)) (x2 x3 : (⟨S1600000, .i32⟩ : BufTy).Contents (Elt Ideal)) (x4 : (⟨S64x64, .f32⟩ : BufTy).Contents (Elt Ideal)) (x5 : (⟨S64, .f32⟩ : BufTy).Contents (Elt Ideal)) (x6 : (⟨S64x40, .f32⟩ : BufTy).Contents (Elt Ideal)) (x7 : (⟨S40, .f32⟩ : BufTy).Contents (Elt Ideal)) :
    Read.val_main_v36 (F := Ideal) x0 x1 x2 x3 x4 x5 x6 x7
      = network sumDims x0 x1 x2 x3 x4 (broadcastInDim S1x64 ![1] bcast_S64_S1x64_1 x5)
          x6 (broadcastInDim S1x40 ![1] bcast_S40_S1x40_1 x7) := by
  rw [layered2, scaled4, summed2, scaled3, layered1, scaled2, summed1, scaled1]
  rfl

end Cert.ReferenceIdeal.RefValue

end
-- ==== Proof.lean ====
/-
  The kernel computes a two-layer graph convolution in four Pallas regions with the neighbour sums between them on the
  host; the reference computes it as one line of host operations. Per layer:

      h <- h * norm ;  h <- sum over in-neighbours ;  h <- h * norm ;  h <- h W + b ;  (first layer) h <- max h 0 .

  At the extended reals both results are ONE function of the eight argument arrays, Cert.Gcn.network:
  the scaling regions and the host's products with the broadcast column are the row scale; the linear regions (matrix
  unit into zeros, operands narrowed, bias row broadcast down the rows) and the host's contraction plus bias are the
  linear layer; the two neighbour sums are spelled by the same host operations in both programs and are never opened.
  No law beyond 0 + x = x is used, so the precondition (finite inputs) is not needed for the value.

  The three frames are the generated ones (the reference's is its generated run with the result dropped); the ideal pass
  rewrote nothing, so the idealization claim is trivial.
-/
import proofs.«155898_j19679540150348_2_alg».proof.Defs
import proofs.«155898_j19679540150348_2_alg».proof.Proof.Gen.Kernel
import proofs.«155898_j19679540150348_2_alg».proof.Proof.Gen.Kernel.Skeleton
import proofs.«155898_j19679540150348_2_alg».proof.Proof.Gen.Kernel.Launch
import proofs.«155898_j19679540150348_2_alg».proof.Proof.Gen.Kernel.Points
import proofs.«155898_j19679540150348_2_alg».proof.Proof.Gen.Kernel.Frame
import proofs.«155898_j19679540150348_2_alg».proof.Proof.Gen.KernelIdeal
import proofs.«155898_j19679540150348_2_alg».proof.Proof.Gen.KernelIdeal.Skeleton
import proofs.«155898_j19679540150348_2_alg».proof.Proof.Gen.KernelIdeal.Launch
import proofs.«155898_j19679540150348_2_alg».proof.Proof.Gen.KernelIdeal.Points
import proofs.«155898_j19679540150348_2_alg».proof.Proof.Gen.KernelIdeal.Frame
import proofs.«155898_j19679540150348_2_alg».proof.Proof.Gen.ReferenceIdeal
import proofs.«155898_j19679540150348_2_alg».proof.Proof.Gen.ReferenceIdeal.Run
import proofs.«155898_j19679540150348_2_alg».proof.Proof.Gen.ReferenceIdeal.Read
import proofs.«155898_j19679540150348_2_alg».proof.Proof.Gen.Pre_finite_inputs
import proofs.«155898_j19679540150348_2_alg».proof.Proof.KernelValue
import proofs.«155898_j19679540150348_2_alg».proof.Proof.RefValue
import Idealize.ShloMosaic.Adequacy
import Idealize.ShloMosaic.Init

noncomputable section

namespace Cert.Proof

open Idealize.ShloMosaic Idealize.ShloMosaic.TcCoe Idealize.SL.Sem Cert.Gcn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs spell the neighbour sum with the same dimension numbers. -/
theorem sumDims_eq : Cert.ReferenceIdeal.RefValue.sumDims = Cert.KernelIdeal.RunValue.sumDims := rfl

/-- Both programs end with the network of the argument arrays: the kernel's by reading its run back through the
    regions, the reference's by reading its line of operations, on arguments that agree. -/
theorem algebraic : Cert.algebraic_KernelIdeal_ReferenceIdeal := by
  intro m ρ m' ρ' _ hagree
  refine ⟨fun c => network Cert.KernelIdeal.RunValue.sumDims (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (shapeCast Cert.KernelIdeal.S1x64 (m ((c.tc : Thread Cert.KernelIdeal.nD Cert.KernelIdeal.τ).loc Cert.KernelIdeal.main_arg5)) Cert.KernelIdeal.Facts₀.shapeCasts_S64_S1x64)
      (m ((c.tc : Thread Cert.KernelIdeal.nD Cert.KernelIdeal.τ).loc Cert.KernelIdeal.main_arg6))
      (shapeCast Cert.KernelIdeal.S1x40 (m ((c.tc : Thread Cert.KernelIdeal.nD Cert.KernelIdeal.τ).loc Cert.KernelIdeal.main_arg7)) Cert.KernelIdeal.Facts₀.shapeCasts_S40_S1x40), ?_, ?_⟩
  · exact (θ_run Cert.KernelIdeal.defs _ _).mono
      (fun r h c => ⟨(h c).1.trans (Cert.KernelIdeal.RunValue.result_eq m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v36_eq, Cert.ReferenceIdeal.RefValue.value_eq, h0, h1, h2, h3, h4, h5, h6, h7]
    exact network_rows _ _ sumDims_eq _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
